-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .bf16⟩
  | .hbm, ⟨5, _⟩ => ⟨S4096x4096, .bf16⟩
  | .hbm, ⟨6, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .i1⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .i1⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192x4096, .f32⟩
  | .hbm, ⟨50, _⟩ => ⟨S8192x4096, .f32⟩
  | .hbm, ⟨51, _⟩ => ⟨S8192x4096, .f32⟩
  | .hbm, ⟨52, _⟩ => ⟨S1x4096, .f32⟩
  | .hbm, ⟨53, _⟩ => ⟨S8192x4096, .f32⟩
  | .hbm, ⟨54, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_10 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The function both programs compute, entry by entry, on the extended reals.

  For x : [8192, 4096], w : [4096, 4096], b : [4096] the result at row r and column c is
      act (∑ k < 4096, x[r, k] · w[k, c]) + b[c],
  where act = gelu ∘ gelu ∘ leaky ∘ leaky, with
      leaky v = v if v > 0 else s · v                       (s the float word of 0.01),
      gelu v  = (h · v) · (1 + tanh (g · (v + ((a · v) · v) · v)))
  (h, g, a the float words of 0.5, 0.7978846 and 0.044715). The words are kept as words: both programs
  carry the same ones, so their values are never needed.
-/
import Idealize.ShloMosaic.PureOps.Ideal
import Idealize.ShloMosaic.Lib.ValueIdx

noncomputable section

namespace Cert.Mlp

open Idealize.ShloMosaic Idealize.ShloMosaic.ValueIdx

/-- Leaky relu on an extended real: the value itself where it is positive, else the slope word times it. -/
def leaky (v : EReal) : EReal :=
  Scalar.select (Ideal.cmp .ogt v (Ideal.ofBits .f32 0x00000000#32)) v (Ideal.ofBits .f32 0x3C23D70A#32 * v)

/-- The tanh form of gelu on an extended real, in the order of operations both programs use. -/
def gelu (v : EReal) : EReal :=
  (Ideal.ofBits .f32 0x3F000000#32 * v)
    * (Ideal.ofBits .f32 0x3F800000#32
        + Ideal.tanh (Ideal.ofBits .f32 0x3F4C422A#32 * (v + ((Ideal.ofBits .f32 0x3D372713#32 * v) * v) * v)))

/-- The activation applied to a matrix product's entry: leaky twice, then gelu twice. -/
def act (v : EReal) : EReal := gelu (gelu (leaky (leaky v)))

/-- The result at row `r`, column `c`: the activation of the row-by-column product, plus the column's bias. -/
def entry (x : (⟨2, ![8192, 4096]⟩ : Shape).Idx → EReal) (w : (⟨2, ![4096, 4096]⟩ : Shape).Idx → EReal)
    (b : (⟨1, ![4096]⟩ : Shape).Idx → EReal) (r : Fin 8192) (c : Fin 4096) : EReal :=
  act (∑ k : Fin 4096, x (ix2 r k) * w (ix2 k c)) + b (ix1 c)

/-- The whole result array. -/
def result (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => entry x w b (i 0) (i 1)

theorem result_ix2 (x : (⟨2, ![8192, 4096]⟩ : Shape).Idx → EReal) (w : (⟨2, ![4096, 4096]⟩ : Shape).Idx → EReal)
    (b : (⟨1, ![4096]⟩ : Shape).Idx → EReal) (r : Fin 8192) (c : Fin 4096) :
    result x w b (ix2 r c) = entry x w b r c := rfl

end Cert.Mlp

end
-- ==== Proof.RefRead.lean ====
/-
  The reference's result, read entry by entry on the extended reals.

  The reference computes  act (x · w) + b  for x : [8192, 4096], w : [4096, 4096], b : [4096], with the bias
  broadcast along the rows and act = gelu ∘ gelu ∘ leaky ∘ leaky applied entrywise. Here its composed term is shown
  equal to the specification's array: at row r and column c,
      act (∑ k < 4096, x[r, k] · w[k, c]) + b[c].

  Three readings, then the assembly:
  * the matrix product at (r, c) is the sum over the one contracted axis, re-indexed by that axis's coordinate;
  * the two broadcasts of the bias, [4096] → [1, 4096] → [8192, 4096], read b[c] at (r, c);
  * the entrywise chain: on the extended reals every arithmetic operation of the chain acts entry by entry, so
    leaky and gelu on whole arrays read, at an index, as the specification's scalar functions of the entry there.
  The float words of the constants stay words: the same ones stand on both sides and are never evaluated.
-/
import proofs.«134675_j3556232922082_2_alg».proof.Proof.RefRun
import proofs.«134675_j3556232922082_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The matrix product at an entry -/

/-- The product of x : [8192, 4096] and w : [4096, 4096] at row `r`, column `cc` is the sum over the contracted
    axis of x[r, k] · w[k, cc]: the contraction index has one coordinate, and the operands' indices at it are
    (r, k) and (k, cc). -/
theorem dot_read (x : FVec Ideal S8192x4096 .f32) (w : FVec Ideal S4096x4096 .f32) (r : Fin 8192) (cc : Fin 4096) :
    Host.dotGeneral (F := Ideal) dot_S8192x4096_S4096x4096_S8192x4096_1_0_0_1_n_n none x w (ix2 r cc)
      = ∑ k : Fin 4096, x (ix2 r k) * w (ix2 k cc) := by
  simp only [Host.dotGeneral]
  rw [Ideal.dotGeneral_apply]
  rw [← Equiv.sum_comp (contrEquiv1 dot_S8192x4096_S4096x4096_S8192x4096_1_0_0_1_n_n 4096 rfl rfl).symm]
  refine Finset.sum_congr rfl fun k _ => ?_
  have hl : dot_S8192x4096_S4096x4096_S8192x4096_1_0_0_1_n_n.lhsIdx (ix2 r cc) ((contrEquiv1 dot_S8192x4096_S4096x4096_S8192x4096_1_0_0_1_n_n 4096 rfl rfl).symm k) = ix2 r k := by
    funext a
    match a with
    | ⟨0, _⟩ => rfl
    | ⟨1, _⟩ =>
      refine Fin.ext ?_
      exact (dot_S8192x4096_S4096x4096_S8192x4096_1_0_0_1_n_n.lhsIdx_val_of_single (cl := (1 : Fin 2)) rfl (ix2 r cc) _).trans
        (contrEquiv1_symm_val dot_S8192x4096_S4096x4096_S8192x4096_1_0_0_1_n_n 4096 rfl rfl k)
  have hr : dot_S8192x4096_S4096x4096_S8192x4096_1_0_0_1_n_n.rhsIdx (ix2 r cc) ((contrEquiv1 dot_S8192x4096_S4096x4096_S8192x4096_1_0_0_1_n_n 4096 rfl rfl).symm k) = ix2 k cc := by
    funext a
    match a with
    | ⟨0, _⟩ =>
      refine Fin.ext ?_
      exact (dot_S8192x4096_S4096x4096_S8192x4096_1_0_0_1_n_n.rhsIdx_val_of_single (cr := (0 : Fin 2)) rfl (ix2 r cc) _).trans
        (contrEquiv1_symm_val dot_S8192x4096_S4096x4096_S8192x4096_1_0_0_1_n_n 4096 rfl rfl k)
    | ⟨1, _⟩ => rfl
  rw [hl, hr]

/-! ## The bias at an entry -/

/-- The bias b : [4096], broadcast to [1, 4096] along a new leading axis and then to [8192, 4096] along the rows,
    reads b[cc] at (r, cc): neither broadcast moves the column coordinate, and the row coordinate is dropped. -/
theorem bias_read (b : FVec Ideal S4096 .f32) (r : Fin 8192) (cc : Fin 4096) :
    broadcastInDim S8192x4096 ![0, 1] bcast_S1x4096_S8192x4096_0_1
        (broadcastInDim S1x4096 ![1] bcast_S4096_S1x4096_1 b) (ix2 r cc) = b (ix1 cc) := by
  unfold broadcastInDim
  refine congrArg b (funext fun a => ?_)
  match a with
  | ⟨0, _⟩ => rfl

/-! ## The entrywise chain -/

/-- The array [8192, 4096] every entry of which is the extended real the float word `w` encodes. -/
def splat (w : BitVec 32) : FVec Ideal S8192x4096 .f32 :=
  broadcastInDim S8192x4096 ![] bcast_S_S8192x4096 (constant (F := Ideal) S_ .f32 w)

/-- Leaky relu on a whole array: where an entry is above zero the entry, elsewhere the slope word times it. -/
def leakyV (v : FVec Ideal S8192x4096 .f32) : FVec Ideal S8192x4096 .f32 :=
  select (cmpf .ogt v (splat 0x00000000#32)) v (mulf (splat 0x3C23D70A#32) v)

/-- The tanh form of gelu on a whole array, in the reference's order of operations. -/
def geluV (v : FVec Ideal S8192x4096 .f32) : FVec Ideal S8192x4096 .f32 :=
  mulf (mulf (splat 0x3F000000#32) v)
    (addf (splat 0x3F800000#32)
      (Host.tanh (F := Ideal) (mulf (splat 0x3F4C422A#32) (addf v (mulf (mulf (mulf (splat 0x3D372713#32) v) v) v)))))

/-- A splat reads its word's value at every index. -/
theorem splat_apply (w : BitVec 32) (i : S8192x4096.Idx) : splat w i = Ideal.ofBits .f32 w := rfl

/-- Leaky relu of an array at an index is the scalar leaky relu of the entry there: comparison, select and product
    all act entry by entry. -/
theorem leakyV_apply (v : FVec Ideal S8192x4096 .f32) (i : S8192x4096.Idx) : leakyV v i = Cert.Mlp.leaky (v i) := rfl

/-- Gelu of an array at an index is the scalar gelu of the entry there: on the extended reals the products, sums and
    tanh of the chain act entry by entry. -/
theorem geluV_apply (v : FVec Ideal S8192x4096 .f32) (i : S8192x4096.Idx) : geluV v i = Cert.Mlp.gelu (v i) := rfl

/-! ## The reference's term is the chain of the product, plus the broadcast bias -/

/-- The composed term repeats each intermediate array wherever a later operation reads it; written with every
    intermediate array named once, it is leaky twice and gelu twice of the product, plus the broadcast bias.
    The two spellings are the same term once the names are opened. -/
theorem res_unfold (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v39 (F := Ideal) m c
      = addf (geluV (geluV (leakyV (leakyV (Host.dotGeneral (F := Ideal) (φ₁ := .f32) (φ₂ := .f32) dot_S8192x4096_S4096x4096_S8192x4096_1_0_0_1_n_n none (m ((c.tc : Thread nD τ).loc main_arg0)) (m ((c.tc : Thread nD τ).loc main_arg1)))))))
          (broadcastInDim S8192x4096 ![0, 1] bcast_S1x4096_S8192x4096_0_1 (broadcastInDim S1x4096 ![1] bcast_S4096_S1x4096_1 (m ((c.tc : Thread nD τ).loc main_arg2)))) := rfl

/-- The chain of the product plus the broadcast bias is the specification's array: at (r, cc) the sum of two arrays
    is the sum of their entries, each layer of the chain reads as its scalar function of the entry below it, the
    product's entry is the row-by-column sum, and the broadcast bias's entry is b[cc]. -/
theorem chain_eq (x : FVec Ideal S8192x4096 .f32) (w : FVec Ideal S4096x4096 .f32) (b : FVec Ideal S4096 .f32) :
    addf (geluV (geluV (leakyV (leakyV (Host.dotGeneral (F := Ideal) (φ₁ := .f32) (φ₂ := .f32) dot_S8192x4096_S4096x4096_S8192x4096_1_0_0_1_n_n none x w)))))
        (broadcastInDim S8192x4096 ![0, 1] bcast_S1x4096_S8192x4096_0_1 (broadcastInDim S1x4096 ![1] bcast_S4096_S1x4096_1 b)) = Cert.Mlp.result x w b := by
  funext i
  obtain ⟨r, cc, rfl⟩ : ∃ (r : Fin 8192) (cc : Fin 4096), i = ix2 r cc := ⟨i 0, i 1, eq_ix2 i⟩
  rw [Cert.Mlp.result_ix2, addf_apply, geluV_apply, geluV_apply, leakyV_apply, leakyV_apply, dot_read, bias_read]
  rfl

/-- THE REFERENCE'S RESULT IS THE SPECIFICATION'S ARRAY of the three arguments' contents. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v39 (F := Ideal) m c
      = Cert.Mlp.result (m ((c.tc : Thread Cert.ReferenceIdeal.nD Cert.ReferenceIdeal.τ).loc Cert.ReferenceIdeal.main_arg0))
                        (m ((c.tc : Thread Cert.ReferenceIdeal.nD Cert.ReferenceIdeal.τ).loc Cert.ReferenceIdeal.main_arg1))
                        (m ((c.tc : Thread Cert.ReferenceIdeal.nD Cert.ReferenceIdeal.τ).loc Cert.ReferenceIdeal.main_arg2)) :=
  (res_unfold m c).trans (chain_eq _ _ _)

end Cert.ReferenceIdeal.RefValue

end
-- ==== Proof.KernelPayload.lean ====
/-
  The kernel body's three stored values, read at an entry of the 1024 × 1024 output block, on the extended reals.

  The block is first set to zero; at every step of the contraction it is replaced by itself plus the product of the
  step's 1024 × 1024 blocks of x and w, a sum over the 1024 contraction positions inside the block; at the last step it is
  replaced once more, by the activation of each entry plus the entry of the bias row in the same column.
-/
import proofs.«134675_j3556232922082_2_alg».proof.Proof.Gen.KernelIdeal.Skeleton
import proofs.«134675_j3556232922082_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The block product's dimension numbers: rows of the left block against columns of the right one. -/
abbrev blockDot := dot_S1024x1024_S1024x1024_S1024x1024_1_0_0_1_n_n

/-- At output entry (p, q) and contraction position k the left operand is read at (p, k). -/
theorem lhs_at (p q k : Fin 1024) :
    blockDot.lhsIdx (ix2 p q) ((contrEquiv1 blockDot 1024 rfl rfl).symm k) = ix2 p k := by
  funext a
  apply Fin.ext
  match a with
  | ⟨0, _⟩ => rfl
  | ⟨1, _⟩ =>
    exact (DotDims.lhsIdx_val_of_single blockDot (cl := 1) rfl (ix2 p q) _).trans
      (contrEquiv1_symm_val blockDot 1024 rfl rfl k)

/-- At output entry (p, q) and contraction position k the right operand is read at (k, q). -/
theorem rhs_at (p q k : Fin 1024) :
    blockDot.rhsIdx (ix2 p q) ((contrEquiv1 blockDot 1024 rfl rfl).symm k) = ix2 k q := by
  funext a
  apply Fin.ext
  match a with
  | ⟨0, _⟩ =>
    exact (DotDims.rhsIdx_val_of_single blockDot (cr := 0) rfl (ix2 p q) _).trans
      (contrEquiv1_symm_val blockDot 1024 rfl rfl k)
  | ⟨1, _⟩ => rfl

/-- The product of two blocks into a zero accumulator, at entry (p, q): the sum over the block's contraction positions. -/
theorem blockDot_apply (X W : FVec Ideal S1024x1024 .bf16) (p q : Fin 1024) :
    matmul blockDot none X W (constant (F := Ideal) S1024x1024 .f32 0x00000000#32) (ix2 p q)
      = ∑ k : Fin 1024, X (ix2 p k) * W (ix2 k q) := by
  refine (Ideal.matmul_constant_zero_apply blockDot none X W (ix2 p q)).trans ?_
  rw [← Equiv.sum_comp (contrEquiv1 blockDot 1024 rfl rfl).symm]
  refine Finset.sum_congr rfl fun k _ => ?_
  rw [lhs_at, rhs_at]

/-- The value the block is first set to: zero at every entry. -/
theorem zero_apply (y : S1024x1024.Idx) : k0_pay1 (F := Ideal) y = 0 :=
  Ideal.ofBits_zero_f32

/-- One accumulation step at entry (p, q): what the block held there plus the step's block product there. -/
theorem step_apply (A : Vec Ideal S1024x1024 .f32) (X W : Vec Ideal S1024x1024 .bf16) (p q : Fin 1024) :
    k0_pay2 A X W (ix2 p q) = A (ix2 p q) + ∑ k : Fin 1024, X (ix2 p k) * W (ix2 k q) := by
  unfold k0_pay2
  simp only [shapeCast_self]
  exact congrArg (A (ix2 p q) + ·) (blockDot_apply X W p q)

/-- The last store at entry (p, q): the activation of what the block held there, plus the bias row's entry in column q. -/
theorem last_apply (A : Vec Ideal S1024x1024 .f32) (B : Vec Ideal S1x1024 .f32) (p q : Fin 1024) :
    k0_pay3 A B (ix2 p q) = Cert.Mlp.act (A (ix2 p q)) + B (ix2 (0 : Fin 1) q) := by
  unfold k0_pay3
  simp only [shapeCast_self]
  refine congrArg₂ (· + ·) ?_ (broadcastTo_1b_ab_apply B _ p q)
  rfl

/-- A whole run of four contraction steps at entry (p, q): the block is zeroed, four block products are added to it one
    after the other, and the last store applies the activation and adds the bias row's entry. -/
theorem run_apply (X0 W0 X1 W1 X2 W2 X3 W3 : Vec Ideal S1024x1024 .bf16) (B : Vec Ideal S1x1024 .f32) (p q : Fin 1024) :
    k0_pay3 (k0_pay2 (k0_pay2 (k0_pay2 (k0_pay2 (k0_pay1 (F := Ideal)) X0 W0) X1 W1) X2 W2) X3 W3) B (ix2 p q)
      = Cert.Mlp.act ((((0 + ∑ k : Fin 1024, X0 (ix2 p k) * W0 (ix2 k q)) + ∑ k : Fin 1024, X1 (ix2 p k) * W1 (ix2 k q))
          + ∑ k : Fin 1024, X2 (ix2 p k) * W2 (ix2 k q)) + ∑ k : Fin 1024, X3 (ix2 p k) * W3 (ix2 k q))
        + B (ix2 (0 : Fin 1) q) := by
  rw [last_apply, step_apply, step_apply, step_apply, step_apply, zero_apply]

end Cert.KernelIdeal.Payload

end
-- ==== Proof.LibSumDigits.lean ====
/-
  Re-indexing a finite sum by mixed-radix digits, in any additive commutative monoid.

  Every `r < m * n` is `a * n + b` for exactly one pair of digits `a < m`, `b < n`, so a sum over
  `Fin (m * n)` is the double sum over the two digits (`sum_fin_mul`).  Applying this three times, a
  sum over `Fin (n₁ * n₂ * n₃ * n₄)` is the fourfold sum over the digits of
  `r = ((a * n₂ + b) * n₃ + c) * n₄ + d` (`sum_fin_mul4`).  Last, four nested sums may be reordered
  by moving the outer pair of summation variables inside the inner pair (`sum_comm4`).
-/
import Mathlib.Algebra.BigOperators.Fin
import Mathlib.Logic.Equiv.Fin.Basic
import Mathlib.Tactic.Ring

open scoped BigOperators

namespace Cert.SumDigits

variable {M : Type*} [AddCommMonoid M]

/-- A two-digit numeral with digits `a < m` and `b < n` is below `m * n`. -/
theorem digits_lt {m n : ℕ} (a : Fin m) (b : Fin n) : a.val * n + b.val < m * n :=
  calc a.val * n + b.val < a.val * n + n := Nat.add_lt_add_left b.isLt _
    _ = (a.val + 1) * n := by ring
    _ ≤ m * n := Nat.mul_le_mul_right n a.isLt

/-- A sum over `Fin N` with `N = m * n` is the double sum over the digits `a < m`, `b < n` of
    `r = a * n + b`. -/
theorem sum_fin_mul {m n N : ℕ} (hN : m * n = N) (f : Fin N → M) :
    ∑ r : Fin N, f r = ∑ a : Fin m, ∑ b : Fin n, f ⟨a.val * n + b.val, hN ▸ digits_lt a b⟩ := by
  subst hN
  rw [← Equiv.sum_comp finProdFinEquiv f, Fintype.sum_prod_type]
  refine Finset.sum_congr rfl fun a _ => Finset.sum_congr rfl fun b _ => ?_
  congr 1
  ext
  simp only [finProdFinEquiv_apply_val]
  ring

/-- A four-digit numeral with digits `a < n₁`, `b < n₂`, `c < n₃`, `d < n₄` is below
    `n₁ * n₂ * n₃ * n₄`. -/
theorem digits4_lt {n₁ n₂ n₃ n₄ : ℕ} (a : Fin n₁) (b : Fin n₂) (c : Fin n₃) (d : Fin n₄) :
    ((a.val * n₂ + b.val) * n₃ + c.val) * n₄ + d.val < n₁ * n₂ * n₃ * n₄ :=
  digits_lt (⟨_, digits_lt (⟨_, digits_lt a b⟩ : Fin (n₁ * n₂)) c⟩ : Fin (n₁ * n₂ * n₃)) d

/-- A sum over `Fin N` with `N = n₁ * n₂ * n₃ * n₄` is the fourfold sum over the digits of
    `r = ((a * n₂ + b) * n₃ + c) * n₄ + d`. -/
theorem sum_fin_mul4 {n₁ n₂ n₃ n₄ N : ℕ} (hN : n₁ * n₂ * n₃ * n₄ = N) (f : Fin N → M) :
    ∑ r : Fin N, f r = ∑ a : Fin n₁, ∑ b : Fin n₂, ∑ c : Fin n₃, ∑ d : Fin n₄,
      f ⟨((a.val * n₂ + b.val) * n₃ + c.val) * n₄ + d.val, hN ▸ digits4_lt a b c d⟩ := by
  subst hN
  rw [sum_fin_mul (m := n₁ * n₂ * n₃) (n := n₄) rfl f,
    sum_fin_mul (m := n₁ * n₂) (n := n₃) rfl
      (fun p : Fin (n₁ * n₂ * n₃) => ∑ d : Fin n₄, f ⟨p.val * n₄ + d.val, digits_lt p d⟩),
    sum_fin_mul (m := n₁) (n := n₂) rfl
      (fun q : Fin (n₁ * n₂) => ∑ c : Fin n₃, ∑ d : Fin n₄,
        f ⟨(q.val * n₃ + c.val) * n₄ + d.val,
          digits_lt (⟨_, digits_lt q c⟩ : Fin (n₁ * n₂ * n₃)) d⟩)]

/-- Four nested finite sums: the outer two summation variables may be moved inside the inner two. -/
theorem sum_comm4 {α β γ δ : Type*} [Fintype α] [Fintype β] [Fintype γ] [Fintype δ]
    (g : α → β → γ → δ → M) :
    ∑ a, ∑ b, ∑ c, ∑ d, g a b c d = ∑ c, ∑ d, ∑ a, ∑ b, g a b c d :=
  calc ∑ a, ∑ b, ∑ c, ∑ d, g a b c d
      = ∑ a, ∑ c, ∑ b, ∑ d, g a b c d := Finset.sum_congr rfl fun _ _ => Finset.sum_comm
    _ = ∑ c, ∑ a, ∑ b, ∑ d, g a b c d := Finset.sum_comm
    _ = ∑ c, ∑ a, ∑ d, ∑ b, g a b c d :=
        Finset.sum_congr rfl fun _ _ => Finset.sum_congr rfl fun _ _ => Finset.sum_comm
    _ = ∑ c, ∑ d, ∑ a, ∑ b, g a b c d := Finset.sum_congr rfl fun _ _ => Finset.sum_comm

end Cert.SumDigits
-- ==== Proof.KernelBlocks.lean ====
/-
  What the kernel's windows hold, as entries of the three arguments.

  Before the kernel starts, x and w are converted to a narrower float format (the identity on the extended reals) and the
  bias is reshaped from [4096] to [1, 4096]. The grid has 8 × 4 × 4 points; point t has row-block t / 16, column-block
  (t / 4) % 4 and contraction step t % 4. At point t the kernel sees the 1024 × 1024 block of x at (row-block, step), the
  block of w at (step, column-block) and the [1, 1024] piece of the bias row at column-block. So inside a block, entry
  (p, k) of the x block is x[row-block · 1024 + p, step · 1024 + k], and likewise for w and the bias.
-/
import proofs.«134675_j3556232922082_2_alg».proof.Proof.Gen.KernelIdeal.Value
import proofs.«134675_j3556232922082_2_alg».proof.Proof.LibSumDigits
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The three arguments on core c, as arrays of extended reals. -/
abbrev xArg (c : Dev nD) : S8192x4096.Idx → EReal := m ((c : Thread nD τ).loc main_arg0)
abbrev wArg (c : Dev nD) : S4096x4096.Idx → EReal := m ((c : Thread nD τ).loc main_arg1)
abbrev bArg (c : Dev nD) : S4096.Idx → EReal := m ((c : Thread nD τ).loc main_arg2)

/-- The three input windows' blocks at grid point t, as arrays of extended reals. -/
abbrev xblk (c : Dev nD) (t : Fin cfg0.N) : S1024x1024.Idx → EReal := iblk m c 0 t
abbrev wblk (c : Dev nD) (t : Fin cfg0.N) : S1024x1024.Idx → EReal := iblk m c 1 t
abbrev bblk (c : Dev nD) (t : Fin cfg0.N) : S1x1024.Idx → EReal := iblk m c 2 t

/-- The array the first window reads is x itself: the format conversion is the identity on the extended reals. -/
theorem x_array (c : Dev nD) :
    (V m c main_v1 : S8192x4096.Idx → EReal) = m ((c : Thread nD τ).loc main_arg0) := by
  dsimp only [Gen.V, Gen.hostOps0]
  after_results
  rfl

/-- The array the second window reads is w itself. -/
theorem w_array (c : Dev nD) :
    (V m c main_v2 : S4096x4096.Idx → EReal) = m ((c : Thread nD τ).loc main_arg1) := by
  dsimp only [Gen.V, Gen.hostOps0]
  after_results
  rfl

/-- The array the third window reads is the bias laid out as one row. -/
theorem b_array (c : Dev nD) :
    (V m c main_v0 : S1x4096.Idx → EReal)
      = shapeCast S1x4096 (m ((c : Thread nD τ).loc main_arg2) : S4096.Idx → EReal) shapeCasts_S4096_S1x4096 := by
  dsimp only [Gen.V, Gen.hostOps0]
  after_results
  rfl

/-- The three input windows' block indices at every grid point, decided once over the 128 points. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4 :=
  (by decide +kernel : ∀ t : Fin grid0.N, _)

/-- Entry (p, k) of the x block at point t is x at the block's offset plus (p, k). -/
theorem xblk_apply (c : Dev nD) (t : Fin cfg0.N) (p k : Fin 1024) (r : Fin 8192) (kk : Fin 4096)
    (hr : r.val = win0_0.index t (0 : Fin 2) * 1024 + p.val) (hk : kk.val = win0_0.index t (1 : Fin 2) * 1024 + k.val) :
    xblk m c t (ix2 p k) = xArg m c (ix2 r kk) := by
  refine (congrFun (x_array m c) (((cfg0.win 0).blk t).view.emb (ix2 p k))).trans ?_
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * k.val = kk.val; omega

/-- Entry (k, q) of the w block at point t is w at the block's offset plus (k, q). -/
theorem wblk_apply (c : Dev nD) (t : Fin cfg0.N) (k q : Fin 1024) (kk cc : Fin 4096)
    (hk : kk.val = win0_1.index t (0 : Fin 2) * 1024 + k.val) (hc : cc.val = win0_1.index t (1 : Fin 2) * 1024 + q.val) :
    wblk m c t (ix2 k q) = wArg m c (ix2 kk cc) := by
  refine (congrFun (w_array m c) (((cfg0.win 1).blk t).view.emb (ix2 k q))).trans ?_
  refine congrArg _ (funext fun a => Fin.ext ?_)
  match a with
  | ⟨0, _⟩ => show win0_1.index t (0 : Fin 2) * 1024 + 1 * k.val = kk.val; omega
  | ⟨1, _⟩ => show win0_1.index t (1 : Fin 2) * 1024 + 1 * q.val = cc.val; omega

/-- Entry (0, q) of the bias piece at point t is the bias at the piece's offset plus q. -/
theorem bblk_apply (c : Dev nD) (t : Fin cfg0.N) (q : Fin 1024) (cc : Fin 4096)
    (h0 : win0_2.index t (0 : Fin 2) = 0) (hc : cc.val = win0_2.index t (1 : Fin 2) * 1024 + q.val) :
    bblk m c t (ix2 (0 : Fin 1) q) = bArg m c (ix1 cc) := by
  refine (congrFun (b_array m c) (((cfg0.win 2).blk t).view.emb (ix2 (0 : Fin 1) q))).trans ?_
  refine shapeCast_apply _ _ _ (ix1 cc) ?_
  rw [Shape.rowMajor_val_one, Shape.rowMajor_val_two]
  show cc.val = (win0_2.index t (0 : Fin 2) * 1 + 1 * (0 : Fin 1).val) * 4096 + (win0_2.index t (1 : Fin 2) * 1024 + 1 * q.val)
  rw [h0, hc]
  simp

/-- The block product of contraction step s, at entry (p, q) of the output block whose first point is b: the part of the
    row-by-column product of x and w over the 1024 contraction positions s · 1024 + k. -/
theorem blockSum (c : Dev nD) (b : ℕ) (s : Fin 4) (hb : b % 4 = 0) (h : b + s.val < cfg0.N)
    (r : Fin 8192) (cc : Fin 4096) (p q : Fin 1024)
    (hr : r.val = b / 16 * 1024 + p.val) (hc : cc.val = b / 4 % 4 * 1024 + q.val) :
    ∑ k : Fin 1024, xblk m c ⟨b + s.val, h⟩ (ix2 p k) * wblk m c ⟨b + s.val, h⟩ (ix2 k q)
      = ∑ k : Fin 1024, xArg m c (ix2 r ⟨s.val * 1024 + k.val, Cert.SumDigits.digits_lt s k⟩)
        * wArg m c (ix2 ⟨s.val * 1024 + k.val, Cert.SumDigits.digits_lt s k⟩ cc) := by
  obtain ⟨e0, e1, e2, e3, -, -⟩ := idx_facts ⟨b + s.val, h⟩
  have hs : s.val < 4 := s.isLt
  refine Finset.sum_congr rfl fun k _ => ?_
  refine congrArg₂ (· * ·) ?_ ?_
  · refine xblk_apply m c ⟨b + s.val, h⟩ p k r ⟨s.val * 1024 + k.val, Cert.SumDigits.digits_lt s k⟩ ?_ ?_
    · rw [e0]; show r.val = (b + s.val) / 16 * 1024 + p.val; omega
    · rw [e1]; show s.val * 1024 + k.val = (b + s.val) % 4 * 1024 + k.val; omega
  · refine wblk_apply m c ⟨b + s.val, h⟩ k q ⟨s.val * 1024 + k.val, Cert.SumDigits.digits_lt s k⟩ cc ?_ ?_
    · rw [e2]; show s.val * 1024 + k.val = (b + s.val) % 4 * 1024 + k.val; omega
    · rw [e3]; show cc.val = (b + s.val) / 4 % 4 * 1024 + q.val; omega

/-- The bias entry the last point of the run adds, in column cc. -/
theorem biasAt (c : Dev nD) (b : ℕ) (hb : b % 4 = 0) (h : b + 3 < cfg0.N) (cc : Fin 4096) (q : Fin 1024)
    (hc : cc.val = b / 4 % 4 * 1024 + q.val) :
    bblk m c ⟨b + 3, h⟩ (ix2 (0 : Fin 1) q) = bArg m c (ix1 cc) := by
  obtain ⟨-, -, -, -, e4, e5⟩ := idx_facts ⟨b + 3, h⟩
  refine bblk_apply m c ⟨b + 3, h⟩ q cc e4 ?_
  rw [e5]; show cc.val = (b + 3) / 4 % 4 * 1024 + q.val; omega

end Cert.KernelIdeal.Blocks

end
-- ==== Proof.KernelFold.lean ====
/-
  The kernel's result array, entry by entry, is the specification.

  The output block at (row-block, column-block) is produced by a run of four consecutive grid points, one per contraction
  step: the first zeroes the block and adds its block product, the next two add theirs, and the last adds its own and then
  replaces every entry by its activation plus the bias. Entry (r, c) of the result lies in the run numbered
  4 · (r / 1024) + c / 1024, at place (r % 1024, c % 1024) of its block; there the four block products are the four quarters
  k = s · 1024 + k', s < 4, of the sum over k < 4096 of x[r, k] · w[k, c], and 0 plus the four quarters taken in order is the
  whole sum: addition on the extended reals is associative.
-/
import proofs.«134675_j3556232922082_2_alg».proof.Proof.Gen.KernelIdeal.Value
import proofs.«134675_j3556232922082_2_alg».proof.Proof.Spec
import proofs.«134675_j3556232922082_2_alg».proof.Proof.KernelPayload
import proofs.«134675_j3556232922082_2_alg».proof.Proof.KernelBlocks
import proofs.«134675_j3556232922082_2_alg».proof.Proof.LibSumDigits

noncomputable section

namespace Cert.KernelIdeal.Fold

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- At the second and third point of a run the block is replaced by itself plus the point's block product. -/
theorem step_mid (c : Dev nD) (n : ℕ) (h : n < cfg0.N) (acc : Vec Ideal S1024x1024 .f32) (hn : n % 4 = 1 ∨ n % 4 = 2) :
    Value.step3 m c n h acc = k0_pay2 acc (iblk m c 0 ⟨n, h⟩) (iblk m c 1 ⟨n, h⟩) := by
  unfold Value.step3
  rw [if_pos (by omega)]

/-- At the last point of a run the block product is added and then the activation and the bias are applied. -/
theorem step_last (c : Dev nD) (n : ℕ) (h : n < cfg0.N) (acc : Vec Ideal S1024x1024 .f32) (hn : n % 4 = 3) :
    Value.step3 m c n h acc = k0_pay3 (k0_pay2 acc (iblk m c 0 ⟨n, h⟩) (iblk m c 1 ⟨n, h⟩)) (iblk m c 2 ⟨n, h⟩) := by
  unfold Value.step3
  rw [if_neg (by omega), if_pos (by omega)]

/-- What the output block holds after the four points b, b + 1, b + 2, b + 3 of a run: the five stores composed. -/
theorem fold_eq (c : Dev nD) (b : ℕ) (hb : b % 4 = 0) (h : b + 3 < cfg0.N) :
    Pipeline.accAt (Value.reset3 m c) (Value.step3 m c) b 3 h
      = k0_pay3 (k0_pay2 (k0_pay2 (k0_pay2 (k0_pay2 (k0_pay1 (F := Ideal))
            (iblk m c 0 ⟨b + 0, by omega⟩) (iblk m c 1 ⟨b + 0, by omega⟩))
            (iblk m c 0 ⟨b + 1, by omega⟩) (iblk m c 1 ⟨b + 1, by omega⟩))
            (iblk m c 0 ⟨b + 2, by omega⟩) (iblk m c 1 ⟨b + 2, by omega⟩))
            (iblk m c 0 ⟨b + 3, h⟩) (iblk m c 1 ⟨b + 3, h⟩))
          (iblk m c 2 ⟨b + 3, h⟩) := by
  rw [Pipeline.accAt_succ, step_last m c _ _ _ (by omega), Pipeline.accAt_succ, step_mid m c _ _ _ (by omega),
    Pipeline.accAt_succ, step_mid m c _ _ _ (by omega), Pipeline.accAt_zero]
  rfl

/-- Entry (r, cc) of the array the kernel leaves: the activation of the row-by-column product of x and w, plus the bias. -/
theorem result_entry (c : Dev nD) (r : Fin 8192) (cc : Fin 4096) :
    Value.G3 m c (ix2 r cc)
      = Cert.Mlp.entry (m ((c : Thread nD τ).loc main_arg0)) (m ((c : Thread nD τ).loc main_arg1))
          (m ((c : Thread nD τ).loc main_arg2)) r cc := by
  have hr : r.val < 8192 := r.isLt
  have hc : cc.val < 4096 := cc.isLt
  have hN : cfg0.N = 128 := N_0
  have hrun : Value.run3Of (ix2 r cc) = 4 * (r.val / 1024) + cc.val / 1024 := by
    show 4 * (r.val / 1024 - 0) + 1 * (cc.val / 1024 - 0) = _
    omega
  have hlt : 4 * Value.run3Of (ix2 r cc) + 3 < cfg0.N := by rw [hrun, hN]; omega
  have hb : 4 * Value.run3Of (ix2 r cc) % 4 = 0 := by omega
  have hrp : r.val = 4 * Value.run3Of (ix2 r cc) / 16 * 1024 + r.val % 1024 := by rw [hrun]; omega
  have hcq : cc.val = 4 * Value.run3Of (ix2 r cc) / 4 % 4 * 1024 + cc.val % 1024 := by rw [hrun]; omega
  have hloc : Value.loc3Of (ix2 r cc)
      = ix2 (⟨r.val % 1024, Nat.mod_lt _ (by decide)⟩ : Fin 1024) (⟨cc.val % 1024, Nat.mod_lt _ (by decide)⟩ : Fin 1024) := by
    funext a
    match a with
    | ⟨0, _⟩ => rfl
    | ⟨1, _⟩ => rfl
  unfold Value.G3
  rw [dif_pos hlt, hloc, fold_eq m c _ hb hlt]
  refine (Payload.run_apply _ _ _ _ _ _ _ _ _ _ _).trans ?_
  unfold Cert.Mlp.entry
  refine congrArg₂ (· + ·) (congrArg Cert.Mlp.act ?_) (Blocks.biasAt m c _ hb hlt cc _ hcq)
  rw [zero_add, Cert.SumDigits.sum_fin_mul (m := 4) (n := 1024) (N := 4096) rfl, Fin.sum_univ_four]
  refine congrArg₂ (· + ·) (congrArg₂ (· + ·) (congrArg₂ (· + ·) ?_ ?_) ?_) ?_
  · exact Blocks.blockSum m c _ 0 hb _ r cc _ _ hrp hcq
  · exact Blocks.blockSum m c _ 1 hb _ r cc _ _ hrp hcq
  · exact Blocks.blockSum m c _ 2 hb _ r cc _ _ hrp hcq
  · exact Blocks.blockSum m c _ 3 hb _ r cc _ _ hrp hcq

/-- The array the kernel leaves is the specification's result of the three arguments. -/
theorem result_eq (c : Dev nD) :
    (Value.G3 m c : S8192x4096.Idx → EReal)
      = Cert.Mlp.result (m ((c : Thread nD τ).loc main_arg0)) (m ((c : Thread nD τ).loc main_arg1))
          (m ((c : Thread nD τ).loc main_arg2)) := by
  funext i
  obtain ⟨r, cc, rfl⟩ : ∃ (r : Fin 8192) (cc : Fin 4096), i = ix2 r cc := ⟨i 0, i 1, eq_ix2 i⟩
  exact result_entry m c r cc

end Cert.KernelIdeal.Fold

end
-- ==== Proof.lean ====
/-
  The kernel and its reference compute one function on the extended reals.

  Both programs take x : [8192, 4096], w : [4096, 4096] and b : [4096] and return act (x · w) + b, the bias added to every
  row and act = gelu ∘ gelu ∘ leaky ∘ leaky applied to every entry, with the same float words for the slope and for
  gelu's three constants on both sides. The reference forms the product in one contraction over 4096 positions. The
  kernel tiles the result in 1024 × 1024 blocks and, for each block, runs through the contraction in four steps of 1024
  positions, adding each step's block product into the block, which it zeroed at the first step; after the last step it
  applies the activation and the bias to the block. The kernel also narrows x and w to a 16-bit format first, which on the
  extended reals changes nothing.

  So entry (r, c) is, on the kernel's side, act ((((0 + S₀) + S₁) + S₂) + S₃) + b[c] with Sₛ the sum over k' < 1024 of
  x[r, s · 1024 + k'] · w[s · 1024 + k', c], and on the reference's side act (∑ k < 4096, x[r, k] · w[k, c]) + b[c]. The two
  agree because a sum over 4096 positions is the sum of its four quarters, and addition on the extended reals is
  associative with 0 neutral; no finiteness of the inputs is needed, and the precondition is not used.

  The three frames: the word-level kernel's is the generated frame; the two idealized programs' frames are their value
  runs with the result forgotten. The kernel has no sanctioned rewrite, so there is nothing to preserve.
-/
import proofs.«134675_j3556232922082_2_alg».proof.Defs
import proofs.«134675_j3556232922082_2_alg».proof.Proof.Gen.Kernel.Frame
import proofs.«134675_j3556232922082_2_alg».proof.Proof.Gen.KernelIdeal.Value
import proofs.«134675_j3556232922082_2_alg».proof.Proof.Gen.Pre_finite_inputs
import proofs.«134675_j3556232922082_2_alg».proof.Proof.RefRun
import proofs.«134675_j3556232922082_2_alg».proof.Proof.RefRead
import proofs.«134675_j3556232922082_2_alg».proof.Proof.KernelFold
import Idealize.ShloMosaic.Adequacy
import Idealize.ShloMosaic.Init

noncomputable section

namespace Cert.Proof

open Idealize.ShloMosaic Idealize.SL.Sem

/-- The idealized kernel runs and leaves its arguments unchanged: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments unchanged: its run, the result forgotten. -/
theorem frame_ReferenceIdeal : frame_ReferenceIdeal := fun m ρ _ =>
  (θ_run Cert.ReferenceIdeal.defs _ _).mono (fun _ h c => (h c).2) (Cert.ReferenceIdeal.ValueP.run (F := Ideal) m ρ)

/-- From memories that agree on x, w and b, both idealized programs end with the same array: the kernel's result array is
    the specification's function of its arguments, the reference's is the same function of its own, and the arguments
    agree. -/
theorem algebraic_KernelIdeal_ReferenceIdeal : algebraic_KernelIdeal_ReferenceIdeal := by
  intro m ρ m' ρ' _ hagree
  refine ⟨fun c => Cert.KernelIdeal.Value.G3 (F := Ideal) m c, Cert.KernelIdeal.Value.run (F := Ideal) m ρ, ?_⟩
  refine (θ_run Cert.ReferenceIdeal.defs _ _).mono (fun _ h c => ⟨?_, (h c).2⟩)
    (Cert.ReferenceIdeal.ValueP.run (F := Ideal) m' ρ')
  rw [(h c).1, Cert.ReferenceIdeal.RefValue.res_eq m' c, (hagree c).1, (hagree c).2.1, (hagree c).2.2]
  exact (Cert.KernelIdeal.Fold.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
